-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel

variable [Facts]

def fn {F : FTy → Type} [FloatOps F] (main_arg0 : FVec F S2x512x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  main_v3
-- ==== Kernel.lean ====
abbrev S2x512x512 : Shape := ⟨3, ![2, 512, 512]⟩
abbrev S1x512x512 : Shape := ⟨3, ![1, 512, 512]⟩
abbrev S512x512 : Shape := ⟨2, ![512, 512]⟩
abbrev S512x128 : Shape := ⟨2, ![512, 128]⟩
abbrev S1x128x512 : Shape := ⟨3, ![1, 128, 512]⟩
abbrev S128x512 : Shape := ⟨2, ![128, 512]⟩
abbrev S8x128 : Shape := ⟨2, ![8, 128]⟩
abbrev S1x8x512 : Shape := ⟨3, ![1, 8, 512]⟩
abbrev S8x512 : Shape := ⟨2, ![8, 512]⟩
abbrev S8x128x1 : Shape := ⟨3, ![8, 128, 1]⟩
abbrev S8x1x512 : Shape := ⟨3, ![8, 1, 512]⟩
abbrev S8x128x512 : Shape := ⟨3, ![8, 128, 512]⟩

abbrev nBuf : Space → Nat
  | .hbm => 5
  | .vmem => 8
  | .smem => 0
  | _ => 0

abbrev bufTy : (tb : Table) → Fin (tcTables nBuf tb) → BufTy
  | .hbm, ⟨0, _⟩ => ⟨S2x512x512, .f32⟩
  | .hbm, ⟨1, _⟩ => ⟨S1x512x512, .f32⟩
  | .hbm, ⟨2, _⟩ => ⟨S512x512, .f32⟩
  | .hbm, ⟨3, _⟩ => ⟨S512x512, .f32⟩
  | .hbm, ⟨4, _⟩ => ⟨S2x512x512, .f32⟩
  | .local _ .vmem, ⟨0, _⟩ => ⟨S512x128, .f32⟩
  | .local _ .vmem, ⟨1, _⟩ => ⟨S512x128, .f32⟩
  | .local _ .vmem, ⟨2, _⟩ => ⟨S1x512x512, .f32⟩
  | .local _ .vmem, ⟨3, _⟩ => ⟨S1x512x512, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | _, _ => ⟨S2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v11 : BitVec 32 := Scalar.muli arg6 c8_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v11 : BitVec 32 := Scalar.muli arg6 c8_i32
  let v12 : BitVec 32 := v11
  let v13 : Index := Scalar.indexCast v12
  let c0_6 : Index := 0#32
  ![v13.toNat, 0]
def k0_off2 (k0_t1 : Fin k0_t1_loop.trips) : Fin 3 → Nat :=
  let c0_7 : Index := 0#32
  let c0_i32 : BitVec 32 := 0#32
  let c1_i32 : BitVec 32 := 1#32
  let arg6 : BitVec 32 := Scf.iv c0_i32 c1_i32 k0_t1
  let c8_i32 : BitVec 32 := 8#32
  let v11 : BitVec 32 := Scalar.muli arg6 c8_i32
  let v12 : BitVec 32 := v11
  let v16 : Index := Scalar.indexCast v12
  let c0_8 : Index := 0#32
  ![0, v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x512x512_S1x512x512_0_0_0 : S2x512x512.Slices ![0, 0, 0] S1x512x512
  shapeCasts_S1x512x512_S512x512 : S1x512x512.ShapeCasts S512x512
  transposes_S512x512_S512x512_1_0 : S512x512.Transposes [1, 0] S512x512
  h_S8x128 : 0 < S8x128.numel
  shapeCasts_S8x128_S8x128 : S8x128.ShapeCasts S8x128
  h_S1x8x512 : 0 < S1x8x512.numel
  shapeCasts_S1x8x512_S8x512 : S1x8x512.ShapeCasts S8x512
  shapeCasts_S8x128_S8x128x1 : S8x128.ShapeCasts S8x128x1
  shapeCasts_S8x512_S8x1x512 : S8x512.ShapeCasts S8x1x512
  broadcasts_S8x128x1_S8x128x512 : S8x128x1.Broadcasts S8x128x512
  broadcasts_S8x1x512_S8x128x512 : S8x1x512.Broadcasts S8x128x512
  reduces_S8x128x512_S128x512 : S8x128x512.Reduces [0] S128x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128.size a ≤ S512x128.size a
  k0_off2_inb : ∀ k0_t1 : Fin k0_t1_loop.trips, ∀ a, (k0_off2 k0_t1) a + S1x8x512.size a ≤ S1x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x512.size a
  hwx0_0 : ∀ i : grid0.Coords, EltTy.bits .f32 = 32 ∨ (Rect.block (s := S512x512) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x512x512.size a
  hwx0_2 : ∀ i : grid0.Coords, EltTy.bits .f32 = 32 ∨ (Rect.block (s := S2x512x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S2x512x512.size a
  hwx0_3 : ∀ i : grid0.Coords, EltTy.bits .f32 = 32 ∨ (Rect.block (s := S2x512x512) S1x128x512.size (cc0_transform_3 i) (hinb0_3 i)).WholeWords (EltTy.packing .f32)

variable [Facts₀]

abbrev win0_0 : Pipeline.Window sig grid0 :=
  Pipeline.Window.ofSpec (Memref.whole main_v2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x512 : Shape := ⟨3, ![2, 512, 512]⟩
abbrev S1x512x512 : Shape := ⟨3, ![1, 512, 512]⟩
abbrev S512x512 : Shape := ⟨2, ![512, 512]⟩
abbrev S512x512x1 : Shape := ⟨3, ![512, 512, 1]⟩
abbrev S512x512x512 : Shape := ⟨3, ![512, 512, 512]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S1x512x512, .f32⟩
  | .hbm, ⟨2, _⟩ => ⟨S512x512, .f32⟩
  | .hbm, ⟨3, _⟩ => ⟨S1x512x512, .f32⟩
  | .hbm, ⟨4, _⟩ => ⟨S512x512, .f32⟩
  | .hbm, ⟨5, _⟩ => ⟨S512x512x1, .f32⟩
  | .hbm, ⟨6, _⟩ => ⟨S1x512x512, .f32⟩
  | .hbm, ⟨7, _⟩ => ⟨S512x512x512, .f32⟩
  | .hbm, ⟨8, _⟩ => ⟨S512x512x512, .f32⟩
  | .hbm, ⟨9, _⟩ => ⟨S512x512x512, .f32⟩
  | .hbm, ⟨10, _⟩ => ⟨S_, .f32⟩
  | .hbm, ⟨11, _⟩ => ⟨S512x512, .f32⟩
  | .hbm, ⟨12, _⟩ => ⟨S512x512x1, .f32⟩
  | .hbm, ⟨13, _⟩ => ⟨S1x512x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S_, .f32⟩
  | .hbm, ⟨18, _⟩ => ⟨S512x512, .f32⟩
  | .hbm, ⟨19, _⟩ => ⟨S1x512x512, .f32⟩
  | .hbm, ⟨20, _⟩ => ⟨S1x512x512, .f32⟩
  | .hbm, ⟨21, _⟩ => ⟨S2x512x512, .f32⟩
  | .hbm, ⟨22, _⟩ => ⟨S2x512x512, .f32⟩
  | .hbm, ⟨23, _⟩ => ⟨S2x512x512, .f32⟩
  | .hbm, ⟨24, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512x512_S1x512x512_1_0_0 : S2x512x512.Slices ![1, 0, 0] S1x512x512
  bcast_S512x512_S512x512x1_0_1 : S512x512.BroadcastsInDim S512x512x1 (![0, 1] : Fin 2 → Fin S512x512x1.rank)
  bcast_S512x512_S1x512x512_1_2 : S512x512.BroadcastsInDim S1x512x512 (![1, 2] : Fin 2 → Fin S1x512x512.rank)
  bcast_S512x512x1_S512x512x512_0_1_2 : S512x512x1.BroadcastsInDim S512x512x512 (![0, 1, 2] : Fin 3 → Fin S512x512x512.rank)
  bcast_S1x512x512_S512x512x512_0_1_2 : S1x512x512.BroadcastsInDim S512x512x512 (![0, 1, 2] : Fin 3 → Fin S512x512x512.rank)
  reducesTo_S512x512x512_S512x512_d1 : S512x512x512.ReducesTo [1] S512x512
  h_S_ : 0 < S_.numel
  concatenates_S1x512x512_S1x512x512_S2x512x512_d0 : Shape.Concatenates [S1x512x512, S1x512x512] S2x512x512 0

variable [Facts₀]

class Facts : Prop extends Facts₀ where

variable [Facts]
-- ==== Proof.BitsBody.lean ====
/-
  The kernel body of the max–min composition, run once at a symbolic grid point.

  The body keeps a running maximum `acc` (started at −∞ everywhere) over 64 trips; trip `k` reads rows
  `8k … 8k+7` of the transposed first relation (a slab of the first window) and of the second relation (a slab of
  the second window), forms `min` of every pair along the slab and takes the maximum over the slab's eight rows
  into `acc`. After the loop it reads the third window's block `tp` and stores `tp + acc − tp · acc` over the whole
  output block. What the output block holds afterwards is therefore ONE pure function of the three input blocks
  (`outBlock`), the carried value being the 64-fold iterate `accAfter`.
-/
import proofs.«117891_j63823214019242_2_alg».proof.Proof.Gen.Kernel.Launch
import proofs.«117891_j63823214019242_2_alg».proof.Proof.Gen.Kernel.Skeleton
import proofs.«117891_j63823214019242_2_alg».proof.Proof.Gen.Kernel.Points
import proofs.«117891_j63823214019242_2_alg».proof.Proof.Gen.Kernel.Loops
import Idealize.ShloMosaic.Lib.Pipeline.FrameBody
import Idealize.ShloMosaic.Lib.Ring
import Idealize.ShloMosaic.Lib.Tactic

set_option maxRecDepth 16384

noncomputable section

namespace Cert.Kernel.Compose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slabs a trip reads, and the carried maximum -/

/-- Rows `8k … 8k+7` of the first window's block (the transposed first relation). -/
abbrev slabA (k : Fin k0_t1_loop.trips) : Rect S512x128 :=
  Rect.unit (s := S512x128) (k0_off1 k) S8x128.size (k0_off1_inb k)

/-- Rows `8k … 8k+7` of the second window's block (the second relation). -/
abbrev slabB (k : Fin k0_t1_loop.trips) : Rect S1x512x512 :=
  Rect.unit (s := S1x512x512) (k0_off2 k) S1x8x512.size (k0_off2_inb k)

/-- The whole of a [1, 128, 512] block. -/
abbrev wholeBlock : Rect S1x128x512 :=
  Rect.unit (s := S1x128x512) ![0, 0, 0] S1x128x512.size inb_S1x128x512_S1x128x512_0_0_0

/-- The running maximum before trip `n`, from the first two windows' blocks: −∞ before the first trip, and each trip
    joins in the maximum over its slab of the pairwise minima. -/
def accAfter (x0 : Vec F S512x128 .f32) (x1 : Vec F S1x512x512 .f32) : ℕ → FVec F S128x512 .f32
  | 0 => k0_pay1
  | n + 1 =>
    if h : n < k0_t1_loop.trips then
      k0_pay2 (accAfter x0 x1 n) (View.ld x0 (slabA ⟨n, h⟩)) (View.ld x1 (slabB ⟨n, h⟩))
    else accAfter x0 x1 n

/-- The carried value the loop's invariant tracks is that iterate, of the two buffers' contents as read. -/
theorem carried_eq (𝒱 : Variants) (c : Dev nD) (bd : Option 𝒱.V) (i : grid0.Coords)
    (arg2 : Memref sig .tc .vmem S512x128 .f32) (harg2 : arg2.IsWhole) (arg3 : Memref sig .tc .vmem S1x512x512 .f32) (harg3 : arg3.IsWhole)
    (arg4 : Memref sig .tc .vmem S1x128x512 .f32) (harg4 : arg4.IsWhole) (arg5 : Memref sig .tc .vmem S1x128x512 .f32) (harg5 : arg5.IsWhole)
    (X2 : BufTy.Contents (Elt F) arg2.view.ty) (X3 : BufTy.Contents (Elt F) arg3.view.ty) (n : ℕ) :
    st_k0_t1 (F := F) 𝒱 c bd i arg2 harg2 arg3 harg3 arg4 harg4 arg5 harg5 X2 X3 k0_pay1 n
      = accAfter (arg2.view.read (Elt F) X2) (arg3.view.read (Elt F) X3) n := by
  induction n with
  | zero => rfl
  | succ n ih =>
    rw [st_k0_t1.eq_2, accAfter]
    unfold st_k0_t1Step
    split
    · rw [ih]; unfold tripR_k0_t1 trip_k0_t1; rfl
    · exact ih

/-! ## What the body leaves in the output block -/

/-- The output block after the body: one store over the whole block, of `tp + acc − tp · acc` with `acc` the running
    maximum after all 64 trips. -/
def outBlock (x0 : Vec F S512x128 .f32) (x1 : Vec F S1x512x512 .f32) (x2 : Vec F S1x128x512 .f32) : Vec F S1x128x512 .f32 :=
  View.canon [⟨wholeBlock, k0_pay3 (accAfter x0 x1 k0_t1_loop.trips) (View.ld x2 wholeBlock)⟩]

/-- The one store covers the block. -/
theorem cover_out (p0 : Vec F S1x128x512 .f32) (y : S1x128x512.Idx) :
    ∃ pc ∈ ([⟨wholeBlock, p0⟩] : List (View.Piece (Elt F) S1x128x512 .f32)), y ∈ pc.1.set :=
  View.cover_of_tiled [⟨wholeBlock, p0⟩] S1x128x512.size (by rfl) y

/-! ## The body's triple -/

set_option maxHeartbeats 4000000 in
/-- The body on whole staging memrefs, the three inputs at read contents `x0 x1 x2` and the output at anything, runs to
    the continuation holding the inputs as they were and the output at `outBlock x0 x1 x2`. -/
theorem sound_kernel (c : Dev nD) (E : Set ℕ) (i : grid0.Coords)
    (arg2 : Memref sig .tc .vmem S512x128 .f32) (harg2 : arg2.IsWhole) (arg3 : Memref sig .tc .vmem S1x512x512 .f32) (harg3 : arg3.IsWhole)
    (arg4 : Memref sig .tc .vmem S1x128x512 .f32) (harg4 : arg4.IsWhole) (arg5 : Memref sig .tc .vmem S1x128x512 .f32) (harg5 : arg5.IsWhole)
    (x0 : Vec F S512x128 .f32) (x1 : Vec F S1x512x512 .f32) (x2 : Vec F S1x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__fuzzy_compose_kernel i arg2 harg2 arg3 harg3 arg4 harg4 arg5 harg5) K := by
  simp only [cc0__fuzzy_compose_kernel_eq_skeleton]; unfold cc0__fuzzy_compose_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _)]
  unfold outBlock
  rw [carried_eq]
  rfl

end Cert.Kernel.Compose

end
-- ==== Proof.BitsRun.lean ====
/-
  The launch of the max–min composition kernel and its run.

  @main slices the first relation out of the argument, transposes it, and launches the kernel over a 2 × 4 grid
  with four windows: the transposed first relation (a column tile per point), the argument itself TWICE — once as
  the whole relation `r` of the point's rule, once as the row tile of relation `r` that is amalgamated — and the
  result (a row tile of rule `r`). Two windows on ONE array: the argument's buffer is dealt between them in two
  half shares, enough for both since the pipeline only reads it. Every window's blocks tile its array, no block is
  clipped or idle, so before the body each input's staging buffer holds the block of the region-entry contents at
  the point, and after it the output's holds `outBlock` of the three input blocks.
-/
import proofs.«117891_j63823214019242_2_alg».proof.Proof.BitsBody

set_option maxRecDepth 16384

noncomputable section

namespace Cert.Kernel.Compose

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: after the slice, the reshape and the transpose. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three host operations writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data: the arrays as the region finds them; after the body each input's buffer at its block and the
    output's at `outBlock` of the three input blocks; the invariant the core's scoped buffers that are no staging
    buffer (there are none); nothing owed; the argument's buffer dealt in two halves between the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The argument's buffer, dealt between the two windows on it -/

/-- At the region's entry the three distinct buffers behind the four windows — the transposed relation, the argument,
    the result — each held whole, make the windows' arrays: the argument's full share is the two halves. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_eq_bigSepL_of_eq [main_v2, main_arg0, main_v3] (by decide) (by decide), bigSep_W0]
  beta_reduce
  rw [show (dats m 0 c).arrAt 0 0 = V m c (Pipeline.arrRef spec0 0) from A_eq m c 0,
    show (dats m 0 c).arrAt 1 0 = V m c (Pipeline.arrRef spec0 1) from A_eq m c 1,
    show (dats m 0 c).arrAt 2 0 = V m c (Pipeline.arrRef spec0 2) from A_eq m c 2,
    show (dats m 0 c).arrAt 3 0 = V m c (Pipeline.arrRef spec0 3) from A_eq m c 3]
  simp only [View.set_whole]
  rw [show (dats m 0 c).share 0 = fullShare from rfl, show (dats m 0 c).share 1 = fullShare.left from rfl,
    show (dats m 0 c).share 2 = fullShare.right from rfl, show (dats m 0 c).share 3 = fullShare from rfl]
  show iprop((((c.tc : Thread nD τ).loc main_v2) ↦{fullShare} V m c main_v2) ∗ (((c.tc : Thread nD τ).loc main_arg0) ↦{fullShare} V m c main_arg0)
    ∗ (((c.tc : Thread nD τ).loc main_v3) ↦{fullShare} V m c main_v3)) ⊢ _
  iintro ⟨Ht, Harg, Hres⟩
  ihave Harg := (pointsTo_share (PosShare.mem_left_op_right fullShare)).1 $$ Harg
  icases Harg with ⟨Hl, Hr⟩
  isplitl [Ht]; · iexact Ht
  isplitl [Hl]; · iexact Hl
  isplitl [Hr]; · iexact Hr
  iexact Hres

/-! ## The run -/

set_option backward.isDefEq.respectTransparency.types false in
/-- Every weakly fair execution of @main terminates, every window's array ends at what the library computes from the
    proof data, and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The argument and the result after the run -/

/-- After the run the argument is as launched: both windows on it only read it, so its array never changes. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the run the result's array is what the write-backs of all eight points left. -/
theorem post_main_v3 (r : PUnit × MemSt nD τ sig (Elt F)) (h : Pipeline.FramePost cfgs (dats m) 0 (V m) r) (c : Dev nD) :
    r.2.mem ((c : Thread nD τ).loc main_v3) = (dats m 0 c).arrAt 3 cfg0.N :=
  (h c).1 3

/-- The frame: every weakly fair execution terminates without a fault and leaves the argument as launched. -/
theorem frame : θ_run defs (onTc (τ := τ) (main (F := F))) ⟨m, fun _ => 0, ρ⟩ fun r => ∀ c : Dev nD,
    r.2.mem ((c : Thread nD τ).loc main_arg0) = m ((c : Thread nD τ).loc main_arg0) :=
  (θ_run defs _ _).mono (fun r h c => kept_main_arg0 m r h c) (run_main m ρ)

end Cert.Kernel.Compose

end
-- ==== Proof.IdealBody.lean ====
/-
  The kernel body of the max–min composition, run once at a symbolic grid point.

  The body keeps a running maximum `acc` (started at −∞ everywhere) over 64 trips; trip `k` reads rows
  `8k … 8k+7` of the transposed first relation (a slab of the first window) and of the second relation (a slab of
  the second window), forms `min` of every pair along the slab and takes the maximum over the slab's eight rows
  into `acc`. After the loop it reads the third window's block `tp` and stores `tp + acc − tp · acc` over the whole
  output block. What the output block holds afterwards is therefore ONE pure function of the three input blocks
  (`outBlock`), the carried value being the 64-fold iterate `accAfter`.
-/
import proofs.«117891_j63823214019242_2_alg».proof.Proof.Gen.KernelIdeal.Launch
import proofs.«117891_j63823214019242_2_alg».proof.Proof.Gen.KernelIdeal.Skeleton
import proofs.«117891_j63823214019242_2_alg».proof.Proof.Gen.KernelIdeal.Points
import proofs.«117891_j63823214019242_2_alg».proof.Proof.Gen.KernelIdeal.Loops
import Idealize.ShloMosaic.Lib.Pipeline.FrameBody
import Idealize.ShloMosaic.Lib.Ring
import Idealize.ShloMosaic.Lib.Tactic

set_option maxRecDepth 16384

noncomputable section

namespace Cert.KernelIdeal.Compose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The slabs a trip reads, and the carried maximum -/

/-- Rows `8k … 8k+7` of the first window's block (the transposed first relation). -/
abbrev slabA (k : Fin k0_t1_loop.trips) : Rect S512x128 :=
  Rect.unit (s := S512x128) (k0_off1 k) S8x128.size (k0_off1_inb k)

/-- Rows `8k … 8k+7` of the second window's block (the second relation). -/
abbrev slabB (k : Fin k0_t1_loop.trips) : Rect S1x512x512 :=
  Rect.unit (s := S1x512x512) (k0_off2 k) S1x8x512.size (k0_off2_inb k)

/-- The whole of a [1, 128, 512] block. -/
abbrev wholeBlock : Rect S1x128x512 :=
  Rect.unit (s := S1x128x512) ![0, 0, 0] S1x128x512.size inb_S1x128x512_S1x128x512_0_0_0

/-- The running maximum before trip `n`, from the first two windows' blocks: −∞ before the first trip, and each trip
    joins in the maximum over its slab of the pairwise minima. -/
def accAfter (x0 : Vec F S512x128 .f32) (x1 : Vec F S1x512x512 .f32) : ℕ → FVec F S128x512 .f32
  | 0 => k0_pay1
  | n + 1 =>
    if h : n < k0_t1_loop.trips then
      k0_pay2 (accAfter x0 x1 n) (View.ld x0 (slabA ⟨n, h⟩)) (View.ld x1 (slabB ⟨n, h⟩))
    else accAfter x0 x1 n

/-- The carried value the loop's invariant tracks is that iterate, of the two buffers' contents as read. -/
theorem carried_eq (𝒱 : Variants) (c : Dev nD) (bd : Option 𝒱.V) (i : grid0.Coords)
    (arg2 : Memref sig .tc .vmem S512x128 .f32) (harg2 : arg2.IsWhole) (arg3 : Memref sig .tc .vmem S1x512x512 .f32) (harg3 : arg3.IsWhole)
    (arg4 : Memref sig .tc .vmem S1x128x512 .f32) (harg4 : arg4.IsWhole) (arg5 : Memref sig .tc .vmem S1x128x512 .f32) (harg5 : arg5.IsWhole)
    (X2 : BufTy.Contents (Elt F) arg2.view.ty) (X3 : BufTy.Contents (Elt F) arg3.view.ty) (n : ℕ) :
    st_k0_t1 (F := F) 𝒱 c bd i arg2 harg2 arg3 harg3 arg4 harg4 arg5 harg5 X2 X3 k0_pay1 n
      = accAfter (arg2.view.read (Elt F) X2) (arg3.view.read (Elt F) X3) n := by
  induction n with
  | zero => rfl
  | succ n ih =>
    rw [st_k0_t1.eq_2, accAfter]
    unfold st_k0_t1Step
    split
    · rw [ih]; unfold tripR_k0_t1 trip_k0_t1; rfl
    · exact ih

/-! ## What the body leaves in the output block -/

/-- The output block after the body: one store over the whole block, of `tp + acc − tp · acc` with `acc` the running
    maximum after all 64 trips. -/
def outBlock (x0 : Vec F S512x128 .f32) (x1 : Vec F S1x512x512 .f32) (x2 : Vec F S1x128x512 .f32) : Vec F S1x128x512 .f32 :=
  View.canon [⟨wholeBlock, k0_pay3 (accAfter x0 x1 k0_t1_loop.trips) (View.ld x2 wholeBlock)⟩]

/-- The one store covers the block. -/
theorem cover_out (p0 : Vec F S1x128x512 .f32) (y : S1x128x512.Idx) :
    ∃ pc ∈ ([⟨wholeBlock, p0⟩] : List (View.Piece (Elt F) S1x128x512 .f32)), y ∈ pc.1.set :=
  View.cover_of_tiled [⟨wholeBlock, p0⟩] S1x128x512.size (by rfl) y

/-! ## The body's triple -/

set_option maxHeartbeats 4000000 in
/-- The body on whole staging memrefs, the three inputs at read contents `x0 x1 x2` and the output at anything, runs to
    the continuation holding the inputs as they were and the output at `outBlock x0 x1 x2`. -/
theorem sound_kernel (c : Dev nD) (E : Set ℕ) (i : grid0.Coords)
    (arg2 : Memref sig .tc .vmem S512x128 .f32) (harg2 : arg2.IsWhole) (arg3 : Memref sig .tc .vmem S1x512x512 .f32) (harg3 : arg3.IsWhole)
    (arg4 : Memref sig .tc .vmem S1x128x512 .f32) (harg4 : arg4.IsWhole) (arg5 : Memref sig .tc .vmem S1x128x512 .f32) (harg5 : arg5.IsWhole)
    (x0 : Vec F S512x128 .f32) (x1 : Vec F S1x512x512 .f32) (x2 : Vec F S1x128x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlock x0 x1 x2)) -∗ K ⟨⟩))
      ⊢ wp frame (wpE (defs₀ (F := F)) Variants.none c none) E (cc0__fuzzy_compose_kernel i arg2 harg2 arg3 harg3 arg4 harg4 arg5 harg5) K := by
  simp only [cc0__fuzzy_compose_kernel_eq_skeleton]; unfold cc0__fuzzy_compose_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _)]
  unfold outBlock
  rw [carried_eq]
  rfl

end Cert.KernelIdeal.Compose

end
-- ==== Proof.IdealRun.lean ====
/-
  The launch of the max–min composition kernel and its run.

  @main slices the first relation out of the argument, transposes it, and launches the kernel over a 2 × 4 grid
  with four windows: the transposed first relation (a column tile per point), the argument itself TWICE — once as
  the whole relation `r` of the point's rule, once as the row tile of relation `r` that is amalgamated — and the
  result (a row tile of rule `r`). Two windows on ONE array: the argument's buffer is dealt between them in two
  half shares, enough for both since the pipeline only reads it. Every window's blocks tile its array, no block is
  clipped or idle, so before the body each input's staging buffer holds the block of the region-entry contents at
  the point, and after it the output's holds `outBlock` of the three input blocks.
-/
import proofs.«117891_j63823214019242_2_alg».proof.Proof.IdealBody

set_option maxRecDepth 16384

noncomputable section

namespace Cert.KernelIdeal.Compose

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: after the slice, the reshape and the transpose. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main up to the region: the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the three host operations writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The pipeline's proof data -/

/-- The proof data: the arrays as the region finds them; after the body each input's buffer at its block and the
    output's at `outBlock` of the three input blocks; the invariant the core's scoped buffers that are no staging
    buffer (there are none); nothing owed; the argument's buffer dealt in two halves between the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlock (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The argument's buffer, dealt between the two windows on it -/

/-- At the region's entry the three distinct buffers behind the four windows — the transposed relation, the argument,
    the result — each held whole, make the windows' arrays: the argument's full share is the two halves. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  unfold Pipeline.arrBufs Dat.arrays
  rw [bigSep_eq_bigSepL_of_eq [main_v2, main_arg0, main_v3] (by decide) (by decide), bigSep_W0]
  beta_reduce
  rw [show (dats m 0 c).arrAt 0 0 = V m c (Pipeline.arrRef spec0 0) from A_eq m c 0,
    show (dats m 0 c).arrAt 1 0 = V m c (Pipeline.arrRef spec0 1) from A_eq m c 1,
    show (dats m 0 c).arrAt 2 0 = V m c (Pipeline.arrRef spec0 2) from A_eq m c 2,
    show (dats m 0 c).arrAt 3 0 = V m c (Pipeline.arrRef spec0 3) from A_eq m c 3]
  simp only [View.set_whole]
  rw [show (dats m 0 c).share 0 = fullShare from rfl, show (dats m 0 c).share 1 = fullShare.left from rfl,
    show (dats m 0 c).share 2 = fullShare.right from rfl, show (dats m 0 c).share 3 = fullShare from rfl]
  show iprop((((c.tc : Thread nD τ).loc main_v2) ↦{fullShare} V m c main_v2) ∗ (((c.tc : Thread nD τ).loc main_arg0) ↦{fullShare} V m c main_arg0)
    ∗ (((c.tc : Thread nD τ).loc main_v3) ↦{fullShare} V m c main_v3)) ⊢ _
  iintro ⟨Ht, Harg, Hres⟩
  ihave Harg := (pointsTo_share (PosShare.mem_left_op_right fullShare)).1 $$ Harg
  icases Harg with ⟨Hl, Hr⟩
  isplitl [Ht]; · iexact Ht
  isplitl [Hl]; · iexact Hl
  isplitl [Hr]; · iexact Hr
  iexact Hres

/-! ## The run -/

set_option backward.isDefEq.respectTransparency.types false in
/-- Every weakly fair execution of @main terminates, every window's array ends at what the library computes from the
    proof data, and every other unscoped buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-! ## The argument and the result after the run -/

/-- After the run the argument is as launched: both windows on it only read it, so its array never changes. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the run the result's array is what the write-backs of all eight points left. -/
theorem post_main_v3 (r : PUnit × MemSt nD τ sig (Elt F)) (h : Pipeline.FramePost cfgs (dats m) 0 (V m) r) (c : Dev nD) :
    r.2.mem ((c : Thread nD τ).loc main_v3) = (dats m 0 c).arrAt 3 cfg0.N :=
  (h c).1 3

/-- The frame: every weakly fair execution terminates without a fault and leaves the argument as launched. -/
theorem frame : θ_run defs (onTc (τ := τ) (main (F := F))) ⟨m, fun _ => 0, ρ⟩ fun r => ∀ c : Dev nD,
    r.2.mem ((c : Thread nD τ).loc main_arg0) = m ((c : Thread nD τ).loc main_arg0) :=
  (θ_run defs _ _).mono (fun r h c => kept_main_arg0 m r h c) (run_main m ρ)

end Cert.KernelIdeal.Compose

end
-- ==== Proof.Spec.lean ====
/-
  The result both programs compute, as one function of the argument array.

  The argument `t` holds two 512 × 512 relations, `t[0]` and `t[1]`. For each rule `r ∈ {0, 1}` the max–min
  composition of relation 0 with relation `r` is

      num[r, s, o] = max over k of min (t[0, s, k]) (t[r, k, o]),

  a supremum in the lattice of extended reals whose bottom is −∞ (the value every maximum is started from), and the
  result amalgamates it with the relation itself: `t + num − t · num`, entry by entry.
-/
import Idealize.ShloMosaic.PureOps.Ideal
import Idealize.ShloMosaic.Lib.ValueIdx

noncomputable section

namespace Cert.FuzzyCompose

open Idealize.ShloMosaic Idealize.ShloMosaic.ValueIdx

/-- The two relations side by side: indices (rule, row, column). -/
abbrev Rel2 : Shape := ⟨3, ![2, 512, 512]⟩

/-- The max–min composition of relation 0 with relation `r` at row `s`, column `o`: the supremum over `k` of
    `min (t[0, s, k]) (t[r, k, o])`. -/
def compose (t : Rel2.Idx → EReal) (r : Fin 2) (s o : Fin 512) : EReal :=
  Finset.univ.sup fun k : Fin 512 => min (t (ix3 (0 : Fin 2) s k)) (t (ix3 r k o))

/-- The amalgamated result at an index: `t + num − t · num` with `num` the composition there. -/
def amalgamate (t : Rel2.Idx → EReal) : Rel2.Idx → EReal := fun i =>
  (t i + compose t (i 0) (i 1) (i 2)) - t i * compose t (i 0) (i 1) (i 2)

theorem amalgamate_ix3 (t : Rel2.Idx → EReal) (r : Fin 2) (s o : Fin 512) :
    amalgamate t (ix3 r s o) = (t (ix3 r s o) + compose t r s o) - t (ix3 r s o) * compose t r s o := rfl

/-- The value every maximum is started from, −∞, is the lattice's bottom. -/
theorem ofBits_negInf : Ideal.ofBits .f32 0xFF800000#32 = (⊥ : EReal) := by
  simp [Ideal.ofBits, Ideal.ieee]

/-- A maximum folded from the bottom over a finite family is the family's supremum. -/
theorem fold_max_bot_eq_sup {ι : Type} (s : Finset ι) (f : ι → EReal) :
    s.fold max (⊥ : EReal) f = s.sup f := rfl

end Cert.FuzzyCompose

end
-- ==== Proof.IdealBlockValue.lean ====
/-
  The kernel body's arithmetic read entry by entry.

  One grid point holds three blocks: At, a 512 × 128 block whose entry (k, s) is the first relation's entry (s, k);
  B, a 1 × 512 × 512 block of the second relation; and tp, a 1 × 128 × 512 block of the relation amalgamated with. The
  running maximum starts at −∞ and trip n joins in, for each (s, o), the maximum over the eight rows k = 8n … 8n+7 of
  min (At[k, s]) (B[k, o]); after the 64 trips it is the supremum over all 512 rows. The stored block is
  tp + acc − tp · acc entry by entry.
-/
import proofs.«117891_j63823214019242_2_alg».proof.Proof.IdealBody
import proofs.«117891_j63823214019242_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Compose

open Cert.KernelIdeal Cert.KernelIdeal.Gen Idealize.ShloMosaic Idealize.ShloMosaic.ValueIdx
open Cert.FuzzyCompose (ofBits_negInf fold_max_bot_eq_sup)

/-! ## The slabs a trip reads -/

/-- The loop makes 64 trips. -/
theorem trips_eq : k0_t1_loop.trips = 64 := by decide

/-- Trip n's slab of At: its entry (j, s) is At[8n + j, s]. -/
theorem ld_slabA_apply (x0 : Vec Ideal S512x128 .f32) (n : Fin k0_t1_loop.trips) (j : Fin 8) (s : Fin 128)
    (hk : 8 * n.val + j.val < 512) :
    View.ld x0 (slabA n) (ix2 j s) = x0 (ix2 (⟨8 * n.val + j.val, hk⟩ : Fin 512) s) := by
  show x0 ((slabA n).idx (ix2 j s)) = _
  refine congrArg x0 (funext fun a => Fin.ext ?_)
  match a with
  | ⟨0, _⟩ =>
    show k0_off1 n 0 + 1 * j.val = 8 * n.val + j.val
    rw [k0_off1_eq n, Nat.one_mul]; rfl
  | ⟨1, _⟩ =>
    show k0_off1 n 1 + 1 * s.val = s.val
    rw [k0_off1_eq n, Nat.one_mul]; exact Nat.zero_add _

/-- Trip n's slab of B: its entry (0, j, o) is B[8n + j, o]. -/
theorem ld_slabB_apply (x1 : Vec Ideal S1x512x512 .f32) (n : Fin k0_t1_loop.trips) (j : Fin 8) (o : Fin 512)
    (hk : 8 * n.val + j.val < 512) :
    View.ld x1 (slabB n) (ix3 (0 : Fin 1) j o) = x1 (ix3 (0 : Fin 1) (⟨8 * n.val + j.val, hk⟩ : Fin 512) o) := by
  show x1 ((slabB n).idx (ix3 (0 : Fin 1) j o)) = _
  refine congrArg x1 (funext fun a => Fin.ext ?_)
  match a with
  | ⟨0, _⟩ =>
    show k0_off2 n 0 + 1 * 0 = 0
    rw [k0_off2_eq n]; rfl
  | ⟨1, _⟩ =>
    show k0_off2 n 1 + 1 * j.val = 8 * n.val + j.val
    rw [k0_off2_eq n, Nat.one_mul]; rfl
  | ⟨2, _⟩ =>
    show k0_off2 n 2 + 1 * o.val = o.val
    rw [k0_off2_eq n, Nat.one_mul]; exact Nat.zero_add _

/-! ## One trip's arithmetic -/

/-- The slab of At spread over the columns: entry (j, s, o) of the three-index array is the slab's entry (j, s). -/
theorem spreadA_apply (v14 : Vec Ideal S8x128 .f32) (j : Fin 8) (s : Fin 128) (o : Fin 512) :
    broadcastTo S8x128x512 (shapeCast S8x128x1 (shapeCast S8x128 v14 shapeCasts_S8x128_S8x128) shapeCasts_S8x128_S8x128x1)
        broadcasts_S8x128x1_S8x128x512 (ix3 j s o) = v14 (ix2 j s) := by
  refine (broadcastTo_apply _ broadcasts_S8x128x1_S8x128x512 (ix3 j s o) (ix3 j s (0 : Fin 1)) (fun a => by
    match a with
    | ⟨0, _⟩ => show j.val = if (8 : Nat) = 1 then 0 else j.val; rw [if_neg (by decide)]
    | ⟨1, _⟩ => show s.val = if (128 : Nat) = 1 then 0 else s.val; rw [if_neg (by decide)]
    | ⟨2, _⟩ => show 0 = if (1 : Nat) = 1 then 0 else o.val; rw [if_pos rfl])).trans ?_
  refine (shapeCast_apply _ shapeCasts_S8x128_S8x128x1 (ix3 j s (0 : Fin 1)) (ix2 j s) (by
    rw [Shape.rowMajor_val_three, Shape.rowMajor_val_two]
    show j.val * 128 + s.val = (j.val * 128 + s.val) * 1 + 0
    omega)).trans ?_
  rw [shapeCast_self]

/-- The slab of B spread over the rows: entry (j, s, o) of the three-index array is the slab's entry (0, j, o). -/
theorem spreadB_apply (v17 : Vec Ideal S1x8x512 .f32) (j : Fin 8) (s : Fin 128) (o : Fin 512) :
    broadcastTo S8x128x512 (shapeCast S8x1x512 (shapeCast S8x512 v17 shapeCasts_S1x8x512_S8x512) shapeCasts_S8x512_S8x1x512)
        broadcasts_S8x1x512_S8x128x512 (ix3 j s o) = v17 (ix3 (0 : Fin 1) j o) := by
  refine (broadcastTo_apply _ broadcasts_S8x1x512_S8x128x512 (ix3 j s o) (ix3 j (0 : Fin 1) o) (fun a => by
    match a with
    | ⟨0, _⟩ => show j.val = if (8 : Nat) = 1 then 0 else j.val; rw [if_neg (by decide)]
    | ⟨1, _⟩ => show 0 = if (1 : Nat) = 1 then 0 else s.val; rw [if_pos rfl]
    | ⟨2, _⟩ => show o.val = if (512 : Nat) = 1 then 0 else o.val; rw [if_neg (by decide)])).trans ?_
  refine (shapeCast_apply _ shapeCasts_S8x512_S8x1x512 (ix3 j (0 : Fin 1) o) (ix2 j o) (by
    rw [Shape.rowMajor_val_three, Shape.rowMajor_val_two]
    show j.val * 512 + o.val = (j.val * 1 + 0) * 512 + o.val
    omega)).trans ?_
  exact shapeCast_1ab_ab_apply v17 shapeCasts_S1x8x512_S8x512 j o

/-- The maximum over the eight rows of a three-index array, started from −∞, is the supremum over the rows. -/
theorem rowMax_apply (src : FVec Ideal S8x128x512 .f32) (hφ : FKind.Formats .f32)
    (hacc : (0xFF800000#32 : BitVec FTy.f32.bits) = FKind.maximumf.neutral .f32 hφ) (s : Fin 128) (o : Fin 512) :
    multiReduction (F := Ideal) .maximumf [0] S128x512 src 0xFF800000#32 reduces_S8x128x512_S128x512 hφ hacc (ix2 s o)
      = Finset.univ.sup fun j : Fin 8 => src (ix3 j s o) := by
  refine (Ideal.multiReduction_maximumf_single src 0xFF800000#32 reduces_S8x128x512_S128x512 hφ hacc (ix2 s o)).trans ?_
  rw [show FloatOps.ofBits (F := Ideal) .f32 0xFF800000#32 = (⊥ : EReal) from ofBits_negInf]
  refine (fold_max_bot_eq_sup _ _).trans ?_
  refine Finset.sup_congr rfl fun j _ => ?_
  exact congrArg src (funext fun a => Fin.ext (match a with | ⟨0, _⟩ => rfl | ⟨1, _⟩ => rfl | ⟨2, _⟩ => rfl))

/-- One trip's arithmetic at an entry: the running maximum joined with the maximum, over the slab's eight rows, of the
    pairwise minima. -/
theorem pay2_apply (acc : FVec Ideal S128x512 .f32) (v14 : Vec Ideal S8x128 .f32) (v17 : Vec Ideal S1x8x512 .f32)
    (s : Fin 128) (o : Fin 512) :
    k0_pay2 (F := Ideal) acc v14 v17 (ix2 s o)
      = max (acc (ix2 s o)) (Finset.univ.sup fun j : Fin 8 => min (v14 (ix2 j s)) (v17 (ix3 (0 : Fin 1) j o))) := by
  unfold k0_pay2
  refine (maximumf_apply _ _ (ix2 s o)).trans (congrArg (max (acc (ix2 s o))) ?_)
  refine (rowMax_apply _ _ _ s o).trans ?_
  refine Finset.sup_congr rfl fun j _ => ?_
  rw [minimumf_apply, spreadA_apply, spreadB_apply]

/-! ## The running maximum -/

/-- The running maximum before trip n is the supremum over the rows k < 8n. -/
theorem accAfter_apply (x0 : Vec Ideal S512x128 .f32) (x1 : Vec Ideal S1x512x512 .f32) (n : ℕ) (hn : n ≤ 64)
    (s : Fin 128) (o : Fin 512) :
    accAfter (F := Ideal) x0 x1 n (ix2 s o)
      = (Finset.univ.filter fun k : Fin 512 => k.val < 8 * n).sup
          fun k : Fin 512 => min (x0 (ix2 k s)) (x1 (ix3 (0 : Fin 1) k o)) := by
  induction n with
  | zero =>
    show Ideal.ofBits .f32 0xFF800000#32 = _
    rw [ofBits_negInf]
    refine (Finset.sup_eq_bot_iff _ _).mpr (fun k hk => ?_) |>.symm
    exact absurd (Finset.mem_filter.mp hk).2 (by omega)
  | succ n ih =>
    have hlt : n < k0_t1_loop.trips := by rw [trips_eq]; omega
    rw [accAfter, dif_pos hlt, pay2_apply, ih (by omega)]
    refine le_antisymm (max_le ?_ ?_) ?_
    · exact Finset.sup_mono fun k hk =>
        Finset.mem_filter.mpr ⟨Finset.mem_univ _, by have := (Finset.mem_filter.mp hk).2; omega⟩
    · refine Finset.sup_le fun j _ => ?_
      have hk : 8 * n + j.val < 512 := by have := j.isLt; omega
      rw [ld_slabA_apply x0 ⟨n, hlt⟩ j s hk, ld_slabB_apply x1 ⟨n, hlt⟩ j o hk]
      exact Finset.le_sup (f := fun k : Fin 512 => min (x0 (ix2 k s)) (x1 (ix3 (0 : Fin 1) k o)))
        (Finset.mem_filter.mpr ⟨Finset.mem_univ _, by show 8 * n + j.val < 8 * (n + 1); have := j.isLt; omega⟩)
    · refine Finset.sup_le fun k hk => ?_
      have hk' : k.val < 8 * (n + 1) := (Finset.mem_filter.mp hk).2
      rcases Nat.lt_or_ge k.val (8 * n) with h | h
      · exact le_max_of_le_left (Finset.le_sup
          (f := fun k : Fin 512 => min (x0 (ix2 k s)) (x1 (ix3 (0 : Fin 1) k o)))
          (Finset.mem_filter.mpr ⟨Finset.mem_univ _, h⟩))
      · refine le_max_of_le_right ?_
        have hj : k.val - 8 * n < 8 := by omega
        have hkk : 8 * n + (k.val - 8 * n) < 512 := by have := k.isLt; omega
        have e : (⟨8 * n + (k.val - 8 * n), hkk⟩ : Fin 512) = k := Fin.ext (by show 8 * n + (k.val - 8 * n) = k.val; omega)
        have := Finset.le_sup
          (f := fun j : Fin 8 => min (View.ld x0 (slabA ⟨n, hlt⟩) (ix2 j s)) (View.ld x1 (slabB ⟨n, hlt⟩) (ix3 (0 : Fin 1) j o)))
          (Finset.mem_univ (⟨k.val - 8 * n, hj⟩ : Fin 8))
        rw [ld_slabA_apply x0 ⟨n, hlt⟩ ⟨k.val - 8 * n, hj⟩ s hkk, ld_slabB_apply x1 ⟨n, hlt⟩ ⟨k.val - 8 * n, hj⟩ o hkk, e] at this
        exact this

/-! ## The stored block -/

/-- The final arithmetic at an entry: tp + acc − tp · acc. -/
theorem pay3_apply (v2 : FVec Ideal S128x512 .f32) (v3 : Vec Ideal S1x128x512 .f32) (s : Fin 128) (o : Fin 512) :
    k0_pay3 (F := Ideal) v2 v3 (ix3 (0 : Fin 1) s o)
      = (v3 (ix3 (0 : Fin 1) s o) + v2 (ix2 s o)) - v3 (ix3 (0 : Fin 1) s o) * v2 (ix2 s o) := by
  unfold k0_pay3
  refine (shapeCast_ab_1ab_apply _ shapeCasts_S128x512_S1x128x512 (0 : Fin 1) s o).trans ?_
  rw [subf_apply, addf_apply, mulf_apply, shapeCast_1ab_ab_apply v3 shapeCasts_S1x128x512_S128x512 s o]

/-- The three zero offsets of the whole block. -/
theorem zeros3 : (![0, 0, 0] : Fin 3 → Nat) = fun _ => 0 :=
  funext fun a => match a with | ⟨0, _⟩ => rfl | ⟨1, _⟩ => rfl | ⟨2, _⟩ => rfl

/-- The stored block at an entry: tp + num − tp · num with num the supremum over all 512 rows of the pairwise minima. -/
theorem outBlock_apply (x0 : Vec Ideal S512x128 .f32) (x1 : Vec Ideal S1x512x512 .f32) (x2 : Vec Ideal S1x128x512 .f32)
    (s : Fin 128) (o : Fin 512) :
    outBlock (F := Ideal) x0 x1 x2 (ix3 (0 : Fin 1) s o)
      = (x2 (ix3 (0 : Fin 1) s o) + Finset.univ.sup fun k : Fin 512 => min (x0 (ix2 k s)) (x1 (ix3 (0 : Fin 1) k o)))
        - x2 (ix3 (0 : Fin 1) s o) * Finset.univ.sup fun k : Fin 512 => min (x0 (ix2 k s)) (x1 (ix3 (0 : Fin 1) k o)) := by
  unfold outBlock
  rw [View.canon_unit_zero (S := S1x128x512) zeros3 inb_S1x128x512_S1x128x512_0_0_0,
    View.ld_unit_zero (S := S1x128x512) zeros3 inb_S1x128x512_S1x128x512_0_0_0 x2, pay3_apply,
    accAfter_apply x0 x1 _ (le_of_eq trips_eq) s o,
    Finset.filter_true_of_mem fun k _ => by rw [trips_eq]; have := k.isLt; omega]

end Cert.KernelIdeal.Compose

end
-- ==== Proof.IdealValue.lean ====
/-
  The result array after the run, as one function of the argument.

  Point (r, q) of the 2 × 4 grid holds three blocks cut from the arrays the region finds: the column tile q of the
  transposed first relation, whose entry (k, s) is the argument's entry (0, 128 q + s, k); the whole relation r; and the row
  tile q of relation r. The block it writes back is therefore the amalgamated max–min composition read at the rows
  128 q … 128 q + 127 of rule r: block (r, q) of ONE function of the argument. The eight blocks tile the result, so
  after the run the result is that function everywhere.
-/
import proofs.«117891_j63823214019242_2_alg».proof.Proof.IdealRun
import proofs.«117891_j63823214019242_2_alg».proof.Proof.IdealBlockValue
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Compose

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.FuzzyCompose (Rel2 compose amalgamate amalgamate_ix3)

variable (m : (ℓ : Loc nD τ sig) → Buf (Elt Ideal) ℓ) (ρ : Dev nD → PrngReg)

/-- The argument as launched on a core: the two relations, indices (rule, row, column). -/
abbrev argOf (c : Dev nD) : Rel2.Idx → EReal := m ((c : Thread nD τ).loc main_arg0)

/-! ## The arrays the region finds -/

/-- The transposed first relation: its entry (k, s) is the argument's entry (0, s, k). -/
theorem V_main_v2_apply (c : Dev nD) (k s : Fin 512) :
    (V m c main_v2 : S512x512.Idx → EReal) (ix2 k s) = argOf m c (ix3 (0 : Fin 2) s k) := by
  have e : (V m c main_v2 : S512x512.Idx → EReal)
      = transpose S512x512 [1, 0] (shapeCast S512x512 (extractStridedSlice S1x512x512 ![0, 0, 0] (argOf m c)
          slices_S2x512x512_S1x512x512_0_0_0) shapeCasts_S1x512x512_S512x512) transposes_S512x512_S512x512_1_0 := by
    dsimp only [V, hostOps0]; after_results; rfl
  rw [e]
  refine (transpose_ix2_apply _ transposes_S512x512_S512x512_1_0 k s).trans ?_
  refine (shapeCast_1ab_ab_apply _ shapeCasts_S1x512x512_S512x512 s k).trans ?_
  exact extractStridedSlice_apply ![0, 0, 0] (argOf m c) slices_S2x512x512_S1x512x512_0_0_0 (ix3 (0 : Fin 1) s k) (ix3 (0 : Fin 2) s k)
    (fun a => match a with
      | ⟨0, _⟩ => rfl
      | ⟨1, _⟩ => (Nat.zero_add _).symm
      | ⟨2, _⟩ => (Nat.zero_add _).symm)

/-! ## One point's block -/

/-- A block computed from three blocks that are, entry by entry, the argument's column tile (transposed), whole relation
    and row tile of rule `r` at the rows `S`, is the amalgamated composition at those rows of rule `r`. -/
theorem block_eq (T : Rel2.Idx → EReal) (x0 : Vec Ideal S512x128 .f32) (x1 : Vec Ideal S1x512x512 .f32) (x2 : Vec Ideal S1x128x512 .f32)
    (r : Fin 2) (S : Fin 128 → Fin 512)
    (h0 : ∀ (k : Fin 512) (s : Fin 128), x0 (ix2 k s) = T (ix3 (0 : Fin 2) (S s) k))
    (h1 : ∀ (k o : Fin 512), x1 (ix3 (0 : Fin 1) k o) = T (ix3 r k o))
    (h2 : ∀ (s : Fin 128) (o : Fin 512), x2 (ix3 (0 : Fin 1) s o) = T (ix3 r (S s) o))
    (s : Fin 128) (o : Fin 512) :
    outBlock (F := Ideal) x0 x1 x2 (ix3 (0 : Fin 1) s o) = amalgamate T (ix3 r (S s) o) := by
  rw [outBlock_apply, amalgamate_ix3, h2]
  unfold compose
  simp only [h0, h1]

/-- The windows' index maps over the grid: the column tile and the row tile move with the result's row tile, the whole
    relation with the result's rule, every other block index is zero. -/
theorem idx_facts : ∀ t : Fin cfg0.N,
    win0_0.index t (0 : Fin 2) = 0 ∧ win0_0.index t (1 : Fin 2) = win0_3.index t (1 : Fin 3)
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = win0_3.index t (1 : Fin 3)
    ∧ win0_2.index t (2 : Fin 3) = 0
    ∧ win0_3.index t (2 : Fin 3) = 0 ∧ win0_3.index t (0 : Fin 3) ≤ 1 ∧ win0_3.index t (1 : Fin 3) ≤ 3 :=
  (by decide +kernel : ∀ t : Fin grid0.N, _)

/-- Every (rule, row tile) pair is some point's. -/
theorem idx_onto : ∀ (q0 : Fin 2) (q1 : Fin 4), ∃ t : Fin cfg0.N, win0_3.index t = ![q0.val, q1.val, 0] :=
  (by decide +kernel : ∀ (q0 : Fin 2) (q1 : Fin 4), ∃ t : Fin grid0.N, win0_3.index t = ![q0.val, q1.val, 0])

/-- What point `t` writes back is block `t` of the amalgamated composition of the argument. -/
theorem flushed3_eq (c : Dev nD) (t : Fin cfg0.N) :
    (dats m 0 c).flushed 3 t = ((cfg0.win 3).blk t).view.read (Elt Ideal) (amalgamate (argOf m c)) := by
  show (cfg0.win 3).cut (grid0.coords t) ((dats m 0 c).after 3 t) = _
  rw [after3]
  obtain ⟨e00, e01, e10, e11, e12, e20, e21, e22, e32, b0, b1⟩ := idx_facts t
  funext j
  have hj0 : (j 0).val < 1 := (j 0).isLt
  have hj1 : (j 1).val < 128 := (j 1).isLt
  have hj2 : (j 2).val < 512 := (j 2).isLt
  have hy : (cfg0.win 3).xinj (grid0.coords t) j = ix3 (0 : Fin 1) (⟨(j 1).val, hj1⟩ : Fin 128) (⟨(j 2).val, hj2⟩ : Fin 512) := by
    funext a; apply Fin.ext
    match a with
    | ⟨0, _⟩ => show (j 0).val = 0; omega
    | ⟨1, _⟩ => rfl
    | ⟨2, _⟩ => rfl
  show outBlock (iblk m c 0 t) (iblk m c 1 t) (iblk m c 2 t) ((cfg0.win 3).xinj (grid0.coords t) j)
    = amalgamate (argOf m c) (((cfg0.win 3).blk t).view.emb j)
  rw [hy]
  have hr : win0_3.index t (0 : Fin 3) < 2 := by omega
  have hq : ∀ s : Fin 128, win0_3.index t (1 : Fin 3) * 128 + s.val < 512 := fun s => by have := s.isLt; omega
  refine (block_eq (argOf m c) (iblk m c 0 t) (iblk m c 1 t) (iblk m c 2 t) ⟨win0_3.index t (0 : Fin 3), hr⟩
    (fun s => ⟨win0_3.index t (1 : Fin 3) * 128 + s.val, hq s⟩) ?_ ?_ ?_ _ _).trans ?_
  · intro k s
    show (V m c main_v2 : S512x512.Idx → EReal) (((cfg0.win 0).blk t).view.emb (ix2 k s)) = _
    have he : ((cfg0.win 0).blk t).view.emb (ix2 k s) = ix2 k (⟨win0_3.index t (1 : Fin 3) * 128 + s.val, hq s⟩ : Fin 512) := by
      funext a; apply Fin.ext
      match a with
      | ⟨0, _⟩ => show win0_0.index t (0 : Fin 2) * 512 + 1 * k.val = k.val; omega
      | ⟨1, _⟩ => show win0_0.index t (1 : Fin 2) * 128 + 1 * s.val = win0_3.index t (1 : Fin 3) * 128 + s.val; omega
    rw [he]
    exact V_main_v2_apply m c k _
  · intro k o
    show (V m c main_arg0 : Rel2.Idx → EReal) (((cfg0.win 1).blk t).view.emb (ix3 (0 : Fin 1) k o)) = _
    rw [V_main_arg0 m c]
    refine congrArg (argOf m c) (funext fun a => Fin.ext ?_)
    match a with
    | ⟨0, _⟩ => show win0_1.index t (0 : Fin 3) * 1 + 1 * 0 = win0_3.index t (0 : Fin 3); omega
    | ⟨1, _⟩ => show win0_1.index t (1 : Fin 3) * 512 + 1 * k.val = k.val; omega
    | ⟨2, _⟩ => show win0_1.index t (2 : Fin 3) * 512 + 1 * o.val = o.val; omega
  · intro s o
    show (V m c main_arg0 : Rel2.Idx → EReal) (((cfg0.win 2).blk t).view.emb (ix3 (0 : Fin 1) s o)) = _
    rw [V_main_arg0 m c]
    refine congrArg (argOf m c) (funext fun a => Fin.ext ?_)
    match a with
    | ⟨0, _⟩ => show win0_2.index t (0 : Fin 3) * 1 + 1 * 0 = win0_3.index t (0 : Fin 3); omega
    | ⟨1, _⟩ => show win0_2.index t (1 : Fin 3) * 128 + 1 * s.val = win0_3.index t (1 : Fin 3) * 128 + s.val; omega
    | ⟨2, _⟩ => show win0_2.index t (2 : Fin 3) * 512 + 1 * o.val = o.val; omega
  · refine congrArg (amalgamate (argOf m c)) (funext fun a => Fin.ext ?_)
    match a with
    | ⟨0, _⟩ => show win0_3.index t (0 : Fin 3) = win0_3.index t (0 : Fin 3) * 1 + 1 * (j 0).val; omega
    | ⟨1, _⟩ => show win0_3.index t (1 : Fin 3) * 128 + (j 1).val = win0_3.index t (1 : Fin 3) * 128 + 1 * (j 1).val; omega
    | ⟨2, _⟩ => show (j 2).val = win0_3.index t (2 : Fin 3) * 512 + 1 * (j 2).val; omega

/-! ## The blocks tile the result -/

/-- An index of the result is in point `t`'s block iff each coordinate is in the block's range on its axis. -/
theorem mem_blk3 (t : Fin cfg0.N) (i : S2x512x512.Idx) :
    i ∈ ((cfg0.win 3).blk t).view.set ↔ ∀ a : Fin 3, win0_3.index t a * S1x128x512.size a ≤ (i a).val ∧ (i a).val < win0_3.index t a * S1x128x512.size a + S1x128x512.size a := by
  show i ∈ ((View.whole main_v3).slice (win0_3.rect t)).set ↔ _
  rw [View.set_slice_whole, Rect.mem_set_unit]
  exact Iff.rfl

/-- Every index of the result is in the block of the point of its rule and of its row's tile. -/
theorem cover3 (i : S2x512x512.Idx) : ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 512 := (i 2).isLt
  obtain ⟨t, ht⟩ := idx_onto ⟨(i 0).val, hi0⟩ ⟨(i 1).val / 128, by omega⟩
  have q0 : win0_3.index t (0 : Fin 3) = (i 0).val := congrFun ht 0
  have q1 : win0_3.index t (1 : Fin 3) = (i 1).val / 128 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

/-- The result after the run: the amalgamated max–min composition of the argument. -/
theorem final3 (c : Dev nD) : (dats m 0 c).arrAt 3 cfg0.N = amalgamate (argOf m c) :=
  (dats m 0 c).arrAt_eq_of_cover 3 (amalgamate (argOf m c)) (fun t _ => flushed3_eq m c t) cover3

/-! ## The run, read -/

/-- Every weakly fair execution terminates without a fault, with the result at the amalgamated max–min composition of
    the argument and the argument as launched. -/
theorem run : θ_run defs (onTc (τ := τ) (main (F := Ideal))) ⟨m, fun _ => 0, ρ⟩ fun r => ∀ c : Dev nD,
      r.2.mem ((c : Thread nD τ).loc main_v3) = amalgamate (argOf m c)
      ∧ r.2.mem ((c : Thread nD τ).loc main_arg0) = m ((c : Thread nD τ).loc main_arg0) :=
  (θ_run defs _ _).mono (fun r h c => ⟨(post_main_v3 m r h c).trans (final3 m c), kept_main_arg0 m r h c⟩) (run_main m ρ)

end Cert.KernelIdeal.Compose

end
-- ==== Proof.RefValue.lean ====
/-
  The reference program's result as one function of the argument array.

  The argument t holds two 512 × 512 relations. The program cuts out t[0] and t[1] as matrices, builds for each rule r
  the three-index array min (t[0, s, k]) (t[r, k, o]), takes its maximum over the middle index k started from −∞, puts
  the two 512 × 512 results side by side again and finishes entry by entry with t + num − t · num. Each stage is read
  at an index; the two maxima become the suprema of the specification.
-/
import proofs.«117891_j63823214019242_2_alg».proof.Proof.Gen.ReferenceIdeal.Read
import proofs.«117891_j63823214019242_2_alg».proof.Proof.Spec
import Idealize.ShloMosaic.Lib.ValueIdx
import Idealize.ShloMosaic.PureOps.Ideal.Laws
import Idealize.ShloMosaic.Lib.Pipeline.Value

noncomputable section

namespace Cert.ReferenceIdeal.RefValue

open Cert.ReferenceIdeal Cert.ReferenceIdeal.Gen Cert.ReferenceIdeal.Read Cert.FuzzyCompose
open Idealize.ShloMosaic Idealize.ShloMosaic.ValueIdx

/-- The argument array's type. -/
abbrev Arg : Type := (⟨S2x512x512, .f32⟩ : BufTy).Contents (Elt Ideal)

/-! ## The two relations as matrices -/

/-- Relation 0 as a matrix: entry (s, k) is t[0, s, k]. -/
theorem v1_at (x0 : Arg) (s k : Fin 512) :
    val_main_v1 (F := Ideal) x0 (ix2 s k) = x0 (ix3 (0 : Fin 2) s k) := by
  rw [val_main_v1_apply, val_main_v0_apply]
  refine congrArg x0 ?_
  funext a
  apply Fin.ext
  match a with
  | ⟨0, _⟩ => rfl
  | ⟨1, _⟩ =>
    show (s.val * 512 + k.val) / 512 % 512 = s.val
    have := s.isLt; have := k.isLt; omega
  | ⟨2, _⟩ =>
    show (s.val * 512 + k.val) % 512 = k.val
    have := s.isLt; have := k.isLt; omega

/-- Relation 1 as a matrix: entry (k, o) is t[1, k, o]. -/
theorem v3_at (x0 : Arg) (k o : Fin 512) :
    val_main_v3 (F := Ideal) x0 (ix2 k o) = x0 (ix3 (1 : Fin 2) k o) := by
  rw [val_main_v3_apply, val_main_v2_apply]
  refine congrArg x0 ?_
  funext a
  apply Fin.ext
  match a with
  | ⟨0, _⟩ => rfl
  | ⟨1, _⟩ =>
    show (k.val * 512 + o.val) / 512 % 512 = k.val
    have := k.isLt; have := o.isLt; omega
  | ⟨2, _⟩ =>
    show (k.val * 512 + o.val) % 512 = o.val
    have := k.isLt; have := o.isLt; omega

/-! ## The three-index arrays under the two maxima -/

/-- For rule 0 the array the maximum runs over: at (s, k, o) it is min (t[0, s, k]) (t[0, k, o]). -/
theorem v8_at (x0 : Arg) (s k o : Fin 512) :
    val_main_v8 (F := Ideal) x0 (ix3 s k o) = min (x0 (ix3 (0 : Fin 2) s k)) (x0 (ix3 (0 : Fin 2) k o)) := by
  rw [val_main_v8_apply, val_main_v6_apply, val_main_v4_apply, val_main_v7_apply, val_main_v5_apply]
  have e1 : idx_main_v4 (idx_main_v6 (ix3 s k o)) = ix2 s k :=
    funext fun a => Fin.ext (by match a with | ⟨0, _⟩ => rfl | ⟨1, _⟩ => rfl)
  have e2 : idx_main_v5 (idx_main_v7 (ix3 s k o)) = ix2 k o :=
    funext fun a => Fin.ext (by match a with | ⟨0, _⟩ => rfl | ⟨1, _⟩ => rfl)
  rw [e1, e2, v1_at, v1_at, Ideal.minimumf_def]

/-- For rule 1 the array the maximum runs over: at (s, k, o) it is min (t[0, s, k]) (t[1, k, o]). -/
theorem v14_at (x0 : Arg) (s k o : Fin 512) :
    val_main_v14 (F := Ideal) x0 (ix3 s k o) = min (x0 (ix3 (0 : Fin 2) s k)) (x0 (ix3 (1 : Fin 2) k o)) := by
  rw [val_main_v14_apply, val_main_v12_apply, val_main_v10_apply, val_main_v13_apply, val_main_v11_apply]
  have e1 : idx_main_v10 (idx_main_v12 (ix3 s k o)) = ix2 s k :=
    funext fun a => Fin.ext (by match a with | ⟨0, _⟩ => rfl | ⟨1, _⟩ => rfl)
  have e2 : idx_main_v11 (idx_main_v13 (ix3 s k o)) = ix2 k o :=
    funext fun a => Fin.ext (by match a with | ⟨0, _⟩ => rfl | ⟨1, _⟩ => rfl)
  rw [e1, e2, v1_at, v3_at, Ideal.minimumf_def]

/-! ## The maxima over the middle index -/

/-- The middle index is the one the maximum runs over: what is left is (row, column). -/
theorem reduces_mid : S512x512x512.Reduces [1] S512x512 := by decide

/-- The pair (s, o) with the middle coordinate k put back is (s, k, o). -/
theorem lift_mid (s o : Fin 512) (k : Fin (S512x512x512.size 1)) :
    reduces_mid.lift (ix2 s o) k = ix3 s (⟨k.val, k.isLt⟩ : Fin 512) o := by
  funext c; apply Fin.ext
  fin_cases c <;> rfl

/-- A maximum over the middle index started from −∞ is the supremum over that index. -/
theorem reduce_mid_at (x : FVec Ideal S512x512x512 .f32) (s o : Fin 512) :
    Host.reduce FloatOps.maximumf x (constant S_ .f32 0xFF800000#32)
        reducesTo_S512x512x512_S512x512_d1 h_S_ (ix2 s o)
      = Finset.univ.sup fun k : Fin 512 => x (ix3 s k o) := by
  rw [Host.reduce_eq_fold_single FloatOps.maximumf x _ reducesTo_S512x512x512_S512x512_d1 reduces_mid h_S_]
  have hf : (x ∘ reduces_mid.lift (ix2 s o)) = fun k : Fin 512 => x (ix3 s k o) :=
    funext fun k => congrArg x (lift_mid s o k)
  refine Eq.trans (congrArg (fun f => Finset.fold FloatOps.maximumf
    (constant (F := Ideal) S_ .f32 0xFF800000#32 (Shape.Idx.first h_S_)) f (Finset.univ : Finset (Fin 512))) hf) ?_
  show Finset.fold max (Ideal.ofBits .f32 0xFF800000#32) (fun k : Fin 512 => x (ix3 s k o)) Finset.univ = _
  rw [ofBits_negInf]
  exact fold_max_bot_eq_sup _ _

/-- The first maximum at (s, o) is the composition of relation 0 with itself there. -/
theorem v9_at (x0 : Arg) (s o : Fin 512) :
    val_main_v9 (F := Ideal) x0 (ix2 s o) = compose x0 (0 : Fin 2) s o := by
  unfold val_main_v9 val_main_cst
  rw [reduce_mid_at]
  exact Finset.sup_congr rfl fun k _ => v8_at x0 s k o

/-- The second maximum at (s, o) is the composition of relation 0 with relation 1 there. -/
theorem v15_at (x0 : Arg) (s o : Fin 512) :
    val_main_v15 (F := Ideal) x0 (ix2 s o) = compose x0 (1 : Fin 2) s o := by
  unfold val_main_v15 val_main_cst_0
  rw [reduce_mid_at]
  exact Finset.sup_congr rfl fun k _ => v14_at x0 s k o

/-! ## The two compositions side by side -/

/-- The first composition as a one-rule block: entry (0, s, o) is the composition at (s, o). -/
theorem v16_at (x0 : Arg) (s o : Fin 512) :
    val_main_v16 (F := Ideal) x0 (ix3 (0 : Fin 1) s o) = compose x0 (0 : Fin 2) s o := by
  rw [val_main_v16_apply]
  have e : idx_main_v16 (ix3 (0 : Fin 1) s o) = ix2 s o :=
    funext fun a => Fin.ext (by match a with | ⟨0, _⟩ => rfl | ⟨1, _⟩ => rfl)
  rw [e, v9_at]

/-- The second composition as a one-rule block. -/
theorem v17_at (x0 : Arg) (s o : Fin 512) :
    val_main_v17 (F := Ideal) x0 (ix3 (0 : Fin 1) s o) = compose x0 (1 : Fin 2) s o := by
  rw [val_main_v17_apply]
  have e : idx_main_v17 (ix3 (0 : Fin 1) s o) = ix2 s o :=
    funext fun a => Fin.ext (by match a with | ⟨0, _⟩ => rfl | ⟨1, _⟩ => rfl)
  rw [e, v15_at]

/-- Rule 0 of the joined array comes from the first block. -/
theorem v18_at_zero (x0 : Arg) (s o : Fin 512) :
    val_main_v18 (F := Ideal) x0 (ix3 (0 : Fin 2) s o) = compose x0 (0 : Fin 2) s o := by
  unfold val_main_v18
  refine (concatenate_pair_apply_left (t := S2x512x512) (s₁ := S1x512x512) (s₂ := S1x512x512) (0 : Fin S2x512x512.rank) _ _ _ (ix3 (0 : Fin 2) s o) rfl (ix3 (0 : Fin 1) s o)
    (fun b => by match b with | ⟨0, _⟩ => rfl | ⟨1, _⟩ => rfl | ⟨2, _⟩ => rfl)).trans ?_
  exact v16_at x0 s o

/-- Rule 1 of the joined array comes from the second block, whose own rule coordinate is one less. -/
theorem v18_at_one (x0 : Arg) (s o : Fin 512) :
    val_main_v18 (F := Ideal) x0 (ix3 (1 : Fin 2) s o) = compose x0 (1 : Fin 2) s o := by
  unfold val_main_v18
  refine (concatenate_pair_apply_right (t := S2x512x512) (s₁ := S1x512x512) (s₂ := S1x512x512) (0 : Fin S2x512x512.rank) _ _ _ (ix3 (1 : Fin 2) s o) rfl rfl (ix3 (0 : Fin 1) s o)
    (fun b hb => by match b with | ⟨0, _⟩ => exact absurd rfl hb | ⟨1, _⟩ => rfl | ⟨2, _⟩ => rfl) rfl).trans ?_
  exact v17_at x0 s o

/-- The joined array at (r, s, o) is the composition of relation 0 with relation r at (s, o). -/
theorem v18_at (x0 : Arg) (r : Fin 2) (s o : Fin 512) :
    val_main_v18 (F := Ideal) x0 (ix3 r s o) = compose x0 r s o := by
  fin_cases r
  · exact v18_at_zero x0 s o
  · exact v18_at_one x0 s o

/-! ## The result -/

/-- The reference program computes the amalgamated max–min compositions: t + num − t · num entry by entry, the sum,
    product and difference being the extended reals' own. -/
theorem result_eq (x0 : (⟨Cert.ReferenceIdeal.S2x512x512, .f32⟩ : BufTy).Contents (Elt Ideal)) :
    Cert.ReferenceIdeal.Read.val_main_v21 (F := Ideal) x0 = Cert.FuzzyCompose.amalgamate x0 := by
  funext i
  obtain ⟨r, s, o, rfl⟩ : ∃ (r : Fin 2) (s o : Fin 512), i = ix3 r s o := ⟨i 0, i 1, i 2, eq_ix3 i⟩
  rw [val_main_v21_apply, val_main_v19_apply, val_main_v20_apply, v18_at, amalgamate_ix3]
  rfl

end Cert.ReferenceIdeal.RefValue

end
-- ==== Proof.lean ====
/-
  The five claims of the max–min composition certificate, assembled.

  The argument t holds two 512 × 512 relations. Both programs compute, for each rule r, the composition
  num[r, s, o] = max over k of min (t[0, s, k]) (t[r, k, o]) — a supremum in the extended reals, started from −∞ — and
  return t + num − t · num entry by entry. The kernel does it tile by tile over a 2 × 4 grid, accumulating the maximum
  over eight-row slabs; the reference does it with whole-array operations. Only min, max and one final sum, product and
  difference of the same two numbers occur on either side, so the two results are the same extended real at every index
  with no appeal to finiteness.

  The frames of the two kernel programs come from the launch theorem for windows that share an array (the argument is
  staged twice, and only read); the reference's frame is its run with the result dropped. The ideal pass rewrote nothing,
  so the idealization claim is trivial.
-/
import proofs.«117891_j63823214019242_2_alg».proof.Defs
import proofs.«117891_j63823214019242_2_alg».proof.Proof.Gen.Kernel
import proofs.«117891_j63823214019242_2_alg».proof.Proof.Gen.KernelIdeal
import proofs.«117891_j63823214019242_2_alg».proof.Proof.Gen.ReferenceIdeal
import proofs.«117891_j63823214019242_2_alg».proof.Proof.Gen.ReferenceIdeal.Read
import proofs.«117891_j63823214019242_2_alg».proof.Proof.Gen.Pre_finite_inputs
import proofs.«117891_j63823214019242_2_alg».proof.Proof.BitsRun
import proofs.«117891_j63823214019242_2_alg».proof.Proof.IdealValue
import proofs.«117891_j63823214019242_2_alg».proof.Proof.RefValue
import Idealize.ShloMosaic.Adequacy
import Idealize.ShloMosaic.Init

noncomputable section

namespace Cert.Proof

open Idealize.ShloMosaic Idealize.SL.Sem

/-- The kernel as printed runs to the end without a fault and leaves the argument as launched. -/
theorem frame_kernel : Cert.frame_Kernel := fun m ρ _ => Cert.Kernel.Compose.frame (F := Bits) m ρ

/-- So does the idealized kernel. -/
theorem frame_kernelIdeal : Cert.frame_KernelIdeal := fun m ρ _ => Cert.KernelIdeal.Compose.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the extended reals both programs end with the amalgamated max–min composition of the argument. -/
theorem algebraic : Cert.algebraic_KernelIdeal_ReferenceIdeal := by
  intro m ρ m' ρ' _ hagree
  refine ⟨fun c => Cert.FuzzyCompose.amalgamate (m ((c.tc : Thread Cert.KernelIdeal.nD Cert.KernelIdeal.τ).loc Cert.KernelIdeal.main_arg0)),
    Cert.KernelIdeal.Compose.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
